-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64 : Shape := ⟨2, ![8, 64]⟩
abbrev S64x1048576 : Shape := ⟨2, ![64, 1048576]⟩
abbrev S64 : Shape := ⟨1, ![64]⟩
abbrev S1048576 : Shape := ⟨1, ![1048576]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S64x1048576 : S_.BroadcastsInDim S64x1048576 (![] : Fin 0 → Fin S64x1048576.rank)
  reducesTo_S64x1048576_S_d0_1 : S64x1048576.ReducesTo [0, 1] S_
  bcast_S_S64 : S_.BroadcastsInDim S64 (![] : Fin 0 → Fin S64.rank)
  reducesTo_S64_S_d0 : S64.ReducesTo [0] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S8x64 .f32) (main_arg1 : FVec F S64x1048576 .f32) (main_arg2 : FVec F S64 .f32) (main_arg3 : FVec F S1048576 .f32) : IVec S_ 1 :=
  let main_v0 : FVec F S8x64 .f32 := Host.absf main_arg0
  let main_cst : FVec F S_ .f32 := constant S_ .f32 0x7F800000#32
  let main_v1 : FVec F S8x64 .f32 := broadcastInDim S8x64 ![] bcast_S_S8x64 main_cst
  let main_v2 : IVec S8x64 1 := cmpf .olt main_v0 main_v1
  let main_c : IVec S_ 1 := constantI S_ 1 1#1
  let main_v3 : IVec S_ 1 := (fun x v => Host.reduce IntOp.andi x v reducesTo_S8x64_S_d0_1 h_S_) main_v2 main_c
  let main_v4 : FVec F S64x1048576 .f32 := Host.absf main_arg1
  let main_cst_0 : FVec F S_ .f32 := constant S_ .f32 0x7F800000#32
  let main_v5 : FVec F S64x1048576 .f32 := broadcastInDim S64x1048576 ![] bcast_S_S64x1048576 main_cst_0
  let main_v6 : IVec S64x1048576 1 := cmpf .olt main_v4 main_v5
  let main_c_1 : IVec S_ 1 := constantI S_ 1 1#1
  let main_v7 : IVec S_ 1 := (fun x v => Host.reduce IntOp.andi x v reducesTo_S64x1048576_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1048576 .f32 := Host.absf main_arg3
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S8x64 : Shape := ⟨2, ![8, 64]⟩
abbrev S64x1048576 : Shape := ⟨2, ![64, 1048576]⟩
abbrev S64 : Shape := ⟨1, ![64]⟩
abbrev S1048576 : Shape := ⟨1, ![1048576]⟩
abbrev S1x64 : Shape := ⟨2, ![1, 64]⟩
abbrev S1x1048576 : Shape := ⟨2, ![1, 1048576]⟩
abbrev S8x4x128x128x128 : Shape := ⟨5, ![8, 4, 128, 128, 128]⟩
abbrev S64x32768 : Shape := ⟨2, ![64, 32768]⟩
abbrev S1x32768 : Shape := ⟨2, ![1, 32768]⟩
abbrev S8x1x8x128x128 : Shape := ⟨5, ![8, 1, 8, 128, 128]⟩
abbrev S8x8x128x128 : Shape := ⟨4, ![8, 8, 128, 128]⟩
abbrev S8x32768 : Shape := ⟨2, ![8, 32768]⟩
abbrev S8x8x64x64 : Shape := ⟨4, ![8, 8, 64, 64]⟩
abbrev S8x1x8x64x64 : Shape := ⟨5, ![8, 1, 8, 64, 64]⟩

abbrev nBuf : Space → Nat
  | .hbm => 9
  | .vmem => 7
  | .smem => 0
  | _ => 0

abbrev bufTy : (tb : Table) → Fin (tcTables nBuf tb) → BufTy
  | .hbm, ⟨0, _⟩ => ⟨S8x64, .f32⟩
  | .hbm, ⟨1, _⟩ => ⟨S64x1048576, .f32⟩
  | .hbm, ⟨2, _⟩ => ⟨S64, .f32⟩
  | .hbm, ⟨3, _⟩ => ⟨S1048576, .f32⟩
  | .hbm, ⟨4, _⟩ => ⟨S1x64, .f32⟩
  | .hbm, ⟨5, _⟩ => ⟨S8x64, .f32⟩
  | .hbm, ⟨6, _⟩ => ⟨S8x64, .f32⟩
  | .hbm, ⟨7, _⟩ => ⟨S1x1048576, .f32⟩
  | .hbm, ⟨8, _⟩ => ⟨S8x4x128x128x128, .f32⟩
  | .local _ .vmem, ⟨0, _⟩ => ⟨S8x64, .f32⟩
  | .local _ .vmem, ⟨1, _⟩ => ⟨S64x32768, .f32⟩
  | .local _ .vmem, ⟨2, _⟩ => ⟨S64x32768, .f32⟩
  | .local _ .vmem, ⟨3, _⟩ => ⟨S1x32768, .f32⟩
  | .local _ .vmem, ⟨4, _⟩ => ⟨S1x32768, .f32⟩
  | .local _ .vmem, ⟨5, _⟩ => ⟨S8x1x8x128x128, .f32⟩
  | .local _ .vmem, ⟨6, _⟩ => ⟨S8x1x8x128x128, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c12_i32 : BitVec 32 := 12#32
  let v1 : BitVec 1 := Scalar.cmpi .slt arg1 c12_i32
  let c8_i32 : BitVec 32 := 8#32
  let v2 : BitVec 32 := Scalar.subi arg1 c8_i32
  let c3_i32 : BitVec 32 := 3#32
  let v3 : BitVec 32 := Scalar.select v1 c3_i32 v2
  let v4 : BitVec 32 := Scalar.select v0 arg1 v3
  let c8_i32_0 : BitVec 32 := 8#32
  let v5 : BitVec 32 := Scalar.muli arg0 c8_i32_0
  let v6 : BitVec 32 := Scalar.addi v5 v4
  let c0_i32 : BitVec 32 := 0#32
  let c0_i32_1 : BitVec 32 := 0#32
  ![c0_i32.toNat, v6.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c12_i32 : BitVec 32 := 12#32
  let v1 : BitVec 1 := Scalar.cmpi .slt arg1 c12_i32
  let c8_i32 : BitVec 32 := 8#32
  let v2 : BitVec 32 := Scalar.subi arg1 c8_i32
  let c3_i32 : BitVec 32 := 3#32
  let v3 : BitVec 32 := Scalar.select v1 c3_i32 v2
  let v4 : BitVec 32 := Scalar.select v0 arg1 v3
  let c8_i32_0 : BitVec 32 := 8#32
  let v5 : BitVec 32 := Scalar.muli arg0 c8_i32_0
  let v6 : BitVec 32 := Scalar.addi v5 v4
  let c0_i32 : BitVec 32 := 0#32
  let c0_i32_1 : BitVec 32 := 0#32
  ![c0_i32.toNat, v6.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  shapeCasts_S1048576_S1x1048576 : S1048576.ShapeCasts S1x1048576
  inb_S8x1x8x128x128_S8x1x8x128x128_0_0_0_0_0 : ∀ a, (![0, 0, 0, 0, 0] : Fin 5 → Nat) a + S8x1x8x128x128.size a ≤ S8x1x8x128x128.size a
  h_S8x1x8x128x128 : 0 < S8x1x8x128x128.numel
  shapeCasts_S8x1x8x128x128_S8x8x128x128 : S8x1x8x128x128.ShapeCasts S8x8x128x128
  shapeCasts_S8x8x128x128_S8x1x8x128x128 : S8x8x128x128.ShapeCasts S8x1x8x128x128
  inb_S8x64_S8x64_0_0 : ∀ a, (![0, 0] : Fin 2 → Nat) a + S8x64.size a ≤ S8x64.size a
  h_S8x64 : 0 < S8x64.numel
  shapeCasts_S8x64_S8x64 : S8x64.ShapeCasts S8x64
  bitsLt_bf16_f32 : FTy.bits .bf16 < FTy.bits .f32
  inb_S64x32768_S64x32768_0_0 : ∀ a, (![0, 0] : Fin 2 → Nat) a + S64x32768.size a ≤ S64x32768.size a
  h_S64x32768 : 0 < S64x32768.numel
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  broadcasts_S1x32768_S8x32768 : S1x32768.Broadcasts S8x32768
  shapeCasts_S8x32768_S8x8x64x64 : S8x32768.ShapeCasts S8x8x64x64
  inb_S8x1x8x128x128_S8x1x8x64x64_0_0_0_32_32 : ∀ a, (![0, 0, 0, 32, 32] : Fin 5 → Nat) a + S8x1x8x64x64.size a ≤ S8x1x8x128x128.size a
  h_S8x1x8x64x64 : 0 < S8x1x8x64x64.numel
  shapeCasts_S8x1x8x64x64_S8x8x64x64 : S8x1x8x64x64.ShapeCasts S8x8x64x64
  shapeCasts_S8x8x64x64_S8x1x8x64x64 : S8x8x64x64.ShapeCasts S8x1x8x64x64
  dot_S8x64_S64x32768_S8x32768_1_0_0_1_n_n_wf : DotDims.WF S8x64 S64x32768 S8x32768 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x64.size a ≤ S8x64.size a
  hwx0_0 : ∀ i : grid0.Coords, EltTy.bits .f32 = 32 ∨ (Rect.block (s := S8x64) S8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32768.size a ≤ S64x1048576.size a
  hwx0_1 : ∀ i : grid0.Coords, EltTy.bits .f32 = 32 ∨ (Rect.block (s := S64x1048576) S64x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x1048576.size a
  hwx0_2 : ∀ i : grid0.Coords, EltTy.bits .f32 = 32 ∨ (Rect.block (s := S1x1048576) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x8x128x128.size a ≤ S8x4x128x128x128.size a
  hwx0_3 : ∀ i : grid0.Coords, EltTy.bits .f32 = 32 ∨ (Rect.block (s := S8x4x128x128x128) S8x1x8x128x128.size (cc0_transform_3 i) (hinb0_3 i)).WholeWords (EltTy.packing .f32)

variable [Facts₀]

def dot_S8x64_S64x32768_S8x32768_1_0_0_1_n_n : DotDims S8x64 S64x32768 S8x32768 where
  lhsContracting := [1]
  rhsContracting := [0]
  lhsNonContracting := [0]
  rhsNonContracting := [1]
  lhsBatch := []
  rhsBatch := []
  wf := dot_S8x64_S64x32768_S8x32768_1_0_0_1_n_n_wf

abbrev win0_0 : Pipeline.Window sig grid0 :=
  Pipeline.Window.ofSpec (Memref.whole main_v2) S8x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1x8x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x64 : Shape := ⟨2, ![8, 64]⟩
abbrev S64x1048576 : Shape := ⟨2, ![64, 1048576]⟩
abbrev S64 : Shape := ⟨1, ![64]⟩
abbrev S1048576 : Shape := ⟨1, ![1048576]⟩
abbrev S1x64 : Shape := ⟨2, ![1, 64]⟩
abbrev S8x1048576 : Shape := ⟨2, ![8, 1048576]⟩
abbrev S1x1048576 : Shape := ⟨2, ![1, 1048576]⟩
abbrev S8x4x64x64x64 : Shape := ⟨5, ![8, 4, 64, 64, 64]⟩
abbrev S_ : Shape := ⟨0, ![]⟩
abbrev S8x4x128x128x128 : Shape := ⟨5, ![8, 4, 128, 128, 128]⟩
abbrev S8x4x32x64x64 : Shape := ⟨5, ![8, 4, 32, 64, 64]⟩
abbrev S1 : Shape := ⟨1, ![1]⟩
abbrev S3 : Shape := ⟨1, ![3]⟩

abbrev nBuf : Space → Nat
  | .hbm => 32
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S64x1048576, .f32⟩
  | .hbm, ⟨2, _⟩ => ⟨S64, .f32⟩
  | .hbm, ⟨3, _⟩ => ⟨S1048576, .f32⟩
  | .hbm, ⟨4, _⟩ => ⟨S1x64, .f32⟩
  | .hbm, ⟨5, _⟩ => ⟨S8x64, .f32⟩
  | .hbm, ⟨6, _⟩ => ⟨S8x64, .f32⟩
  | .hbm, ⟨7, _⟩ => ⟨S8x1048576, .f32⟩
  | .hbm, ⟨8, _⟩ => ⟨S1x1048576, .f32⟩
  | .hbm, ⟨9, _⟩ => ⟨S8x1048576, .f32⟩
  | .hbm, ⟨10, _⟩ => ⟨S8x1048576, .f32⟩
  | .hbm, ⟨11, _⟩ => ⟨S8x4x64x64x64, .f32⟩
  | .hbm, ⟨12, _⟩ => ⟨S_, .f32⟩
  | .hbm, ⟨13, _⟩ => ⟨S8x4x128x128x128, .f32⟩
  | .hbm, ⟨14, _⟩ => ⟨S8x4x32x64x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S3, .i32⟩
  | .hbm, ⟨22, _⟩ => ⟨S8x4x128x128x128, .f32⟩
  | .hbm, ⟨23, _⟩ => ⟨S8x4x32x64x64, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S3, .i32⟩
  | .hbm, ⟨31, _⟩ => ⟨S8x4x128x128x128, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  bcast_S1048576_S1x1048576_1 : S1048576.BroadcastsInDim S1x1048576 (![1] : Fin 1 → Fin S1x1048576.rank)
  bcast_S1x1048576_S8x1048576_0_1 : S1x1048576.BroadcastsInDim S8x1048576 (![0, 1] : Fin 2 → Fin S8x1048576.rank)
  shapeCasts_S8x1048576_S8x4x64x64x64 : S8x1048576.ShapeCasts S8x4x64x64x64
  bcast_S_S8x4x128x128x128 : S_.BroadcastsInDim S8x4x128x128x128 (![] : Fin 0 → Fin S8x4x128x128x128.rank)
  slices_S8x4x64x64x64_S8x4x32x64x64_0_0_0_0_0 : S8x4x64x64x64.Slices ![0, 0, 0, 0, 0] S8x4x32x64x64
  bcast_S_S1 : S_.BroadcastsInDim S1 (![] : Fin 0 → Fin S1.rank)
  concatenates_S1_S1_S1_S3_d0 : Shape.Concatenates [S1, S1, S1] S3 0
  slices_S8x4x64x64x64_S8x4x32x64x64_0_0_32_0_0 : S8x4x64x64x64.Slices ![0, 0, 32, 0, 0] S8x4x32x64x64
  dot_S8x64_S64x1048576_S8x1048576_1_0_0_1_n_n_wf : DotDims.WF S8x64 S64x1048576 S8x1048576 [1] [0] [0] [1] [] []
  scatter_S8x4x128x128x128_S3_S8x4x32x64x64_01234_n_234_0_wf : ScatterDims.WF S8x4x128x128x128 S3 S8x4x32x64x64 [0, 1, 2, 3, 4] [] [2, 3, 4] 0

variable [Facts₀]

def dot_S8x64_S64x1048576_S8x1048576_1_0_0_1_n_n : DotDims S8x64 S64x1048576 S8x1048576 where
  lhsContracting := [1]
  rhsContracting := [0]
  lhsNonContracting := [0]
  rhsNonContracting := [1]
  lhsBatch := []
  rhsBatch := []
  wf := dot_S8x64_S64x1048576_S8x1048576_1_0_0_1_n_n_wf
def scatter_S8x4x128x128x128_S3_S8x4x32x64x64_01234_n_234_0 : ScatterDims S8x4x128x128x128 S3 S8x4x32x64x64 where
  updateWindowDims := [0, 1, 2, 3, 4]
  insertedWindowDims := []
  scatterDimsToOperandDims := [2, 3, 4]
  indexVectorDim := 0
  wf := scatter_S8x4x128x128x128_S3_S8x4x32x64x64_01234_n_234_0_wf

class Facts : Prop extends Facts₀ where

variable [Facts]
-- ==== Proof.KernelRun.lean ====
/-
  The frame of the fused projection-and-placement kernel, at any float instance.

  The grid is (c, t) with t the block of eight planes along the depth axis. At every point the body first
  stores zeros over the whole output block; at the DATA points (t < 4 or t ≥ 12) it then loads the scaled
  latent block, the basis tile and the offset tile, and stores the projected tile into the central square
  [32, 96) × [32, 96) of each plane. At the PAD points (4 ≤ t < 12) the block stays zero. The branch
  condition is a chain of comparisons of the second grid coordinate; over the 64 points it holds exactly
  when t % 16 < 4 or 12 ≤ t % 16. The body's run is stated once per case, on whole staging memrefs, the
  stores it leaves in the output buffer found as a list of pieces; what the output buffer holds after a
  point is that list read back. Nothing is carried from one point to the next: the zero store covers the
  block at every point.
-/
import proofs.«130029_j807453852263_2_alg».proof.Proof.Gen.Kernel.Frame
import proofs.«130029_j807453852263_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition -/

/-- The condition of the body's one conditional, as the body computes it from the grid coordinates:
    the depth block is below 4 or at least 12. -/
abbrev isData (i : grid0.Coords) : Prop :=
  (Scalar.cmpi .ne (Scalar.extui (Scalar.ori (Scalar.cmpi .slt (BitVec.ofNat 32 (i 1).val) 4#32)
      (Scalar.cmpi .sge (BitVec.ofNat 32 (i 1).val) 12#32))) 0#32) = 1#1

/-- Over the grid of 4 × 16 points walked in order, point `t` has depth block `t % 16`: the condition holds
    exactly at the four lowest and the four highest blocks of each channel. -/
theorem isData_iff : ∀ t : Fin cfg0.N, isData (grid0.coords t) ↔ (t.val % 16 < 4 ∨ 12 ≤ t.val % 16) :=
  (by decide +kernel : ∀ t : Fin grid0.N, isData (grid0.coords t) ↔ (t.val % 16 < 4 ∨ 12 ≤ t.val % 16))

/-! ## The staging memrefs at a point -/

/-- One staging buffer of the output window, through which its contents are stated. -/
abbrev VO : View sig .tc .vmem S8x1x8x128x128 .f32 := (Memref.whole cc0_stg3_0 : Memref sig .tc .vmem S8x1x8x128x128 .f32).view

abbrev ms0 (t : Fin cfg0.N) : Memref sig .tc .vmem S8x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x32768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1x8x128x128 .f32 := win0_3.stage (cfg0.slots t 3)
abbrev hs3 (t : Fin cfg0.N) : (ms3 t).IsWhole := hstage0_3 ((cfg0.slots t 3).cast nbuf0_3)

/-! ## The body's run, per case -/

set_option maxHeartbeats 1000000 in
/-- At a data point: from the three input memrefs at their contents and the output memref at anything, the
    body runs to its end with the inputs as they were and the output memref with the body's stores written
    (the zero store, then the projected tile); the list of stores is what the run finds. -/
noncomputable def runData (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) :
    { L : List (View.Piece (Elt F) S8x1x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- At a pad point: the same, the branch not taken; the only store is the zero store. -/
noncomputable def runPad (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) :
    { L : List (View.Piece (Elt F) S8x1x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Body

end
-- ==== Proof.KernelFrame.lean ====
/-
  The frame of the fused projection-and-placement kernel, at any float instance, assembled from the body's
  two runs: what the output's staging buffer holds after each grid point (the run's stores read back: at a
  data point the zero store under the projected tile's store, at a pad point the zero store alone), the
  pipeline's proof data (inputs left at their blocks, the output at that), the body obligation at a generic
  point by cases on the closed form of the branch condition, the launch, and the frame claim.
-/
import proofs.«130029_j807453852263_2_alg».proof.Proof.KernelRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the block -/

/-- At a data point the zero store is a store of the whole block: every element is under some store. -/
theorem coverData (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) (y : S8x1x8x128x128.Idx) :
    ∃ pc ∈ (runData c i arg2 harg2 arg3 harg3 arg4 harg4 arg5 harg5 hc x0 x1 x2).1, y ∈ pc.1.set :=
  View.cover_of_tiledL (runData c i arg2 harg2 arg3 harg3 arg4 harg4 arg5 harg5 hc x0 x1 x2).1 S8x1x8x128x128.size (by sl_kernel_rfl) y

/-- What a data point leaves in the output's staging buffer: its stores read back. -/
def outData (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) : Vec F S8x1x8x128x128 .f32 :=
  VO.read (Elt F) (VO.writes (Elt F) VO.junk (runData c i arg2 harg2 arg3 harg3 arg4 harg4 arg5 harg5 hc x0 x1 x2).1)

/-- At a pad point the one store is the zero store of the whole block. -/
theorem coverPad (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) (y : S8x1x8x128x128.Idx) :
    ∃ pc ∈ (runPad c i arg2 harg2 arg3 harg3 arg4 harg4 arg5 harg5 hc x0 x1 x2).1, y ∈ pc.1.set :=
  View.cover_of_tiledL (runPad c i arg2 harg2 arg3 harg3 arg4 harg4 arg5 harg5 hc x0 x1 x2).1 S8x1x8x128x128.size (by sl_kernel_rfl) y

/-- What a pad point leaves in the output's staging buffer. -/
def outPad (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) : Vec F S8x1x8x128x128 .f32 :=
  VO.read (Elt F) (VO.writes (Elt F) VO.junk (runPad c i arg2 harg2 arg3 harg3 arg4 harg4 arg5 harg5 hc x0 x1 x2).1)

/-! ## What the output's buffer holds after each point -/

/-- After the body at point `t`: the case the closed form selects, run at the point's memrefs and input blocks. -/
def outAt (c : Dev nD) (t : Fin cfg0.N) : Vec F S8x1x8x128x128 .f32 :=
  if h : t.val % 16 < 4 ∨ 12 ≤ t.val % 16 then
    outData c (grid0.coords t) (ms0 t) (hs0 t) (ms1 t) (hs1 t) (ms2 t) (hs2 t) (ms3 t) (hs3 t) ((isData_iff t).mpr h)
      (iblk m c 0 t) (iblk m c 1 t) (iblk m c 2 t)
  else
    outPad c (grid0.coords t) (ms0 t) (hs0 t) (ms1 t) (hs1 t) (ms2 t) (hs2 t) (ms3 t) (hs3 t) (fun hc => h ((isData_iff t).mp hc))
      (iblk m c 0 t) (iblk m c 1 t) (iblk m c 2 t)

theorem outAt_data (c : Dev nD) (t : Fin cfg0.N) (h : t.val % 16 < 4 ∨ 12 ≤ t.val % 16) :
    outAt m c t = outData c (grid0.coords t) (ms0 t) (hs0 t) (ms1 t) (hs1 t) (ms2 t) (hs2 t) (ms3 t) (hs3 t) ((isData_iff t).mpr h)
      (iblk m c 0 t) (iblk m c 1 t) (iblk m c 2 t) := dif_pos h

theorem outAt_pad (c : Dev nD) (t : Fin cfg0.N) (h : ¬(t.val % 16 < 4 ∨ 12 ≤ t.val % 16)) :
    outAt m c t = outPad c (grid0.coords t) (ms0 t) (hs0 t) (ms1 t) (hs1 t) (ms2 t) (hs2 t) (ms3 t) (hs3 t) (fun hc => h ((isData_iff t).mp hc))
      (iblk m c 0 t) (iblk m c 1 t) (iblk m c 2 t) := dif_neg h

/-! ## The pipeline's proof data -/

/-- The arrays as the region finds them; after the body at point `t` each input's buffer at its block, the
    output's at `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the closed form says which case the point is
    in; that case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 < 4 ∨ 12 ≤ t.val % 16
  · rw [outAt_data m c t h0]
    unfold outData
    iintro ⟨HΦ, Ho, ⟨%d0, H0⟩, ⟨%d1, H1⟩, ⟨%d2, H2⟩, ⟨%d3, H3⟩⟩
    iapply ((runData c (grid0.coords t) _ _ _ _ _ _ _ _ ((isData_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverData c _ _ _ _ _ _ _ _ _ _ _ _ _)
  · rw [outAt_pad m c t h0]
    unfold outPad
    iintro ⟨HΦ, Ho, ⟨%d0, H0⟩, ⟨%d1, H1⟩, ⟨%d2, H2⟩, ⟨%d3, H3⟩⟩
    iapply ((runPad c (grid0.coords t) _ _ _ _ _ _ _ _ (fun hc => h0 ((isData_iff t).mp hc)) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverPad c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdealRun.lean ====
/-
  The frame of the fused projection-and-placement kernel, at any float instance.

  The grid is (c, t) with t the block of eight planes along the depth axis. At every point the body first
  stores zeros over the whole output block; at the DATA points (t < 4 or t ≥ 12) it then loads the scaled
  latent block, the basis tile and the offset tile, and stores the projected tile into the central square
  [32, 96) × [32, 96) of each plane. At the PAD points (4 ≤ t < 12) the block stays zero. The branch
  condition is a chain of comparisons of the second grid coordinate; over the 64 points it holds exactly
  when t % 16 < 4 or 12 ≤ t % 16. The body's run is stated once per case, on whole staging memrefs, the
  stores it leaves in the output buffer found as a list of pieces; what the output buffer holds after a
  point is that list read back. Nothing is carried from one point to the next: the zero store covers the
  block at every point.
-/
import proofs.«130029_j807453852263_2_alg».proof.Proof.Gen.KernelIdeal.Frame
import proofs.«130029_j807453852263_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch condition -/

/-- The condition of the body's one conditional, as the body computes it from the grid coordinates:
    the depth block is below 4 or at least 12. -/
abbrev isData (i : grid0.Coords) : Prop :=
  (Scalar.cmpi .ne (Scalar.extui (Scalar.ori (Scalar.cmpi .slt (BitVec.ofNat 32 (i 1).val) 4#32)
      (Scalar.cmpi .sge (BitVec.ofNat 32 (i 1).val) 12#32))) 0#32) = 1#1

/-- Over the grid of 4 × 16 points walked in order, point `t` has depth block `t % 16`: the condition holds
    exactly at the four lowest and the four highest blocks of each channel. -/
theorem isData_iff : ∀ t : Fin cfg0.N, isData (grid0.coords t) ↔ (t.val % 16 < 4 ∨ 12 ≤ t.val % 16) :=
  (by decide +kernel : ∀ t : Fin grid0.N, isData (grid0.coords t) ↔ (t.val % 16 < 4 ∨ 12 ≤ t.val % 16))

/-! ## The staging memrefs at a point -/

/-- One staging buffer of the output window, through which its contents are stated. -/
abbrev VO : View sig .tc .vmem S8x1x8x128x128 .f32 := (Memref.whole cc0_stg3_0 : Memref sig .tc .vmem S8x1x8x128x128 .f32).view

abbrev ms0 (t : Fin cfg0.N) : Memref sig .tc .vmem S8x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S64x32768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x1x8x128x128 .f32 := win0_3.stage (cfg0.slots t 3)
abbrev hs3 (t : Fin cfg0.N) : (ms3 t).IsWhole := hstage0_3 ((cfg0.slots t 3).cast nbuf0_3)

/-! ## The body's run, per case -/

set_option maxHeartbeats 1000000 in
/-- At a data point: from the three input memrefs at their contents and the output memref at anything, the
    body runs to its end with the inputs as they were and the output memref with the body's stores written
    (the zero store, then the projected tile); the list of stores is what the run finds. -/
noncomputable def runData (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) :
    { L : List (View.Piece (Elt F) S8x1x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- At a pad point: the same, the branch not taken; the only store is the zero store. -/
noncomputable def runPad (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) :
    { L : List (View.Piece (Elt F) S8x1x8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__fused_kernel i arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Body

end
-- ==== Proof.KernelIdealFrame.lean ====
/-
  The frame of the fused projection-and-placement kernel, at any float instance, assembled from the body's
  two runs: what the output's staging buffer holds after each grid point (the run's stores read back: at a
  data point the zero store under the projected tile's store, at a pad point the zero store alone), the
  pipeline's proof data (inputs left at their blocks, the output at that), the body obligation at a generic
  point by cases on the closed form of the branch condition, the launch, and the frame claim.
-/
import proofs.«130029_j807453852263_2_alg».proof.Proof.KernelIdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores cover the block -/

/-- At a data point the zero store is a store of the whole block: every element is under some store. -/
theorem coverData (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) (y : S8x1x8x128x128.Idx) :
    ∃ pc ∈ (runData c i arg2 harg2 arg3 harg3 arg4 harg4 arg5 harg5 hc x0 x1 x2).1, y ∈ pc.1.set :=
  View.cover_of_tiledL (runData c i arg2 harg2 arg3 harg3 arg4 harg4 arg5 harg5 hc x0 x1 x2).1 S8x1x8x128x128.size (by sl_kernel_rfl) y

/-- What a data point leaves in the output's staging buffer: its stores read back. -/
def outData (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) : Vec F S8x1x8x128x128 .f32 :=
  VO.read (Elt F) (VO.writes (Elt F) VO.junk (runData c i arg2 harg2 arg3 harg3 arg4 harg4 arg5 harg5 hc x0 x1 x2).1)

/-- At a pad point the one store is the zero store of the whole block. -/
theorem coverPad (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) (y : S8x1x8x128x128.Idx) :
    ∃ pc ∈ (runPad c i arg2 harg2 arg3 harg3 arg4 harg4 arg5 harg5 hc x0 x1 x2).1, y ∈ pc.1.set :=
  View.cover_of_tiledL (runPad c i arg2 harg2 arg3 harg3 arg4 harg4 arg5 harg5 hc x0 x1 x2).1 S8x1x8x128x128.size (by sl_kernel_rfl) y

/-- What a pad point leaves in the output's staging buffer. -/
def outPad (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) : Vec F S8x1x8x128x128 .f32 :=
  VO.read (Elt F) (VO.writes (Elt F) VO.junk (runPad c i arg2 harg2 arg3 harg3 arg4 harg4 arg5 harg5 hc x0 x1 x2).1)

/-! ## What the output's buffer holds after each point -/

/-- After the body at point `t`: the case the closed form selects, run at the point's memrefs and input blocks. -/
def outAt (c : Dev nD) (t : Fin cfg0.N) : Vec F S8x1x8x128x128 .f32 :=
  if h : t.val % 16 < 4 ∨ 12 ≤ t.val % 16 then
    outData c (grid0.coords t) (ms0 t) (hs0 t) (ms1 t) (hs1 t) (ms2 t) (hs2 t) (ms3 t) (hs3 t) ((isData_iff t).mpr h)
      (iblk m c 0 t) (iblk m c 1 t) (iblk m c 2 t)
  else
    outPad c (grid0.coords t) (ms0 t) (hs0 t) (ms1 t) (hs1 t) (ms2 t) (hs2 t) (ms3 t) (hs3 t) (fun hc => h ((isData_iff t).mp hc))
      (iblk m c 0 t) (iblk m c 1 t) (iblk m c 2 t)

theorem outAt_data (c : Dev nD) (t : Fin cfg0.N) (h : t.val % 16 < 4 ∨ 12 ≤ t.val % 16) :
    outAt m c t = outData c (grid0.coords t) (ms0 t) (hs0 t) (ms1 t) (hs1 t) (ms2 t) (hs2 t) (ms3 t) (hs3 t) ((isData_iff t).mpr h)
      (iblk m c 0 t) (iblk m c 1 t) (iblk m c 2 t) := dif_pos h

theorem outAt_pad (c : Dev nD) (t : Fin cfg0.N) (h : ¬(t.val % 16 < 4 ∨ 12 ≤ t.val % 16)) :
    outAt m c t = outPad c (grid0.coords t) (ms0 t) (hs0 t) (ms1 t) (hs1 t) (ms2 t) (hs2 t) (ms3 t) (hs3 t) (fun hc => h ((isData_iff t).mp hc))
      (iblk m c 0 t) (iblk m c 1 t) (iblk m c 2 t) := dif_neg h

/-! ## The pipeline's proof data -/

/-- The arrays as the region finds them; after the body at point `t` each input's buffer at its block, the
    output's at `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the closed form says which case the point is
    in; that case's run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  by_cases h0 : t.val % 16 < 4 ∨ 12 ≤ t.val % 16
  · rw [outAt_data m c t h0]
    unfold outData
    iintro ⟨HΦ, Ho, ⟨%d0, H0⟩, ⟨%d1, H1⟩, ⟨%d2, H2⟩, ⟨%d3, H3⟩⟩
    iapply ((runData c (grid0.coords t) _ _ _ _ _ _ _ _ ((isData_iff t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverData c _ _ _ _ _ _ _ _ _ _ _ _ _)
  · rw [outAt_pad m c t h0]
    unfold outPad
    iintro ⟨HΦ, Ho, ⟨%d0, H0⟩, ⟨%d1, H1⟩, ⟨%d2, H2⟩, ⟨%d3, H3⟩⟩
    iapply ((runPad c (grid0.coords t) _ _ _ _ _ _ _ _ (fun hc => h0 ((isData_iff t).mp hc)) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverPad c _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KernelIdealBlock.lean ====
/-
  What one grid point of the idealized kernel leaves in the output's staging block, read at an index.

  The stores the body's run found are read back newest first. At a data point the newest store is the
  projected tile over the central square [32, 96) × [32, 96) of each of the block's eight planes: an element
  (b, 0, dd, h, w) inside the square reads the tile at (b, 0, dd, h − 32, w − 32), which is the row-by-column
  product of the latent block with the basis tile at column n = dd·64² + (h − 32)·64 + (w − 32), plus the
  offset tile at n (the tile [8, 32768] re-laid as [8, 8, 64, 64] keeps row-major positions); any other
  element reads the zero store beneath. At a pad point every element reads the zero store.
-/
import proofs.«130029_j807453852263_2_alg».proof.Proof.KernelIdealFrame
import proofs.«130029_j807453852263_2_alg».proof.Proof.LibDot
import Idealize.ShloMosaic.Lib.WritesUnit
import Idealize.ShloMosaic.Lib.Pipeline.Value
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem

/-! ## The stores the runs found -/

theorem zeros2 : (![0, 0] : Fin 2 → Nat) = fun _ => 0 := funext fun a => by fin_cases a <;> rfl

/-- At a data point: the projected tile's store over the zero store. -/
theorem runData_pieces {F : FTy → Type} [FloatOps F] (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec F S8x64 .f32) (x1 : Vec F S64x32768 .f32) (x2 : Vec F S1x32768 .f32) :
    (runData c i arg2 harg2 arg3 harg3 arg4 harg4 arg5 harg5 hc x0 x1 x2).1
      = [(⟨Rect.unit (s := S8x1x8x128x128) ![0, 0, 0, 32, 32] S8x1x8x64x64.size inb_S8x1x8x128x128_S8x1x8x64x64_0_0_0_32_32, k0_pay2 x0 x1 x2⟩ : View.Piece (Elt F) S8x1x8x128x128 .f32),
         ⟨Rect.unit (s := S8x1x8x128x128) ![0, 0, 0, 0, 0] S8x1x8x128x128.size inb_S8x1x8x128x128_S8x1x8x128x128_0_0_0_0_0, k0_pay1 (F := F)⟩] := by
  unfold runData
  dsimp only
  simp only [View.readAt_eq_ld, harg2.read_unread, harg3.read_unread, harg4.read_unread,
    View.ld_unit_zero (S := S8x64) zeros2, View.ld_unit_zero (S := S64x32768) zeros2, View.ld_unit_zero (S := S1x32768) zeros2]

/-- At a pad point: the zero store alone. -/
theorem runPad_pieces {F : FTy → Type} [FloatOps F] (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec F S8x64 .f32) (x1 : Vec F S64x32768 .f32) (x2 : Vec F S1x32768 .f32) :
    (runPad c i arg2 harg2 arg3 harg3 arg4 harg4 arg5 harg5 hc x0 x1 x2).1
      = [(⟨Rect.unit (s := S8x1x8x128x128) ![0, 0, 0, 0, 0] S8x1x8x128x128.size inb_S8x1x8x128x128_S8x1x8x128x128_0_0_0_0_0, k0_pay1 (F := F)⟩ : View.Piece (Elt F) S8x1x8x128x128 .f32)] := rfl

/-! ## The two payloads at an index, on the extended reals -/

/-- The zero store's payload is the zero word everywhere. -/
theorem payZero_apply (y : S8x1x8x128x128.Idx) : k0_pay1 (F := Ideal) y = Ideal.ofBits .f32 0x00000000#32 := rfl

/-- The body's matrix product is a plain rows-by-columns product. -/
theorem plainDot : Cert.LibDot.Plain dot_S8x64_S64x32768_S8x32768_1_0_0_1_n_n where
  hrank := rfl
  hs := rfl
  hl0 := fun j k => by
    unfold DotDims.lhsIdx
    rw [dif_neg (show ¬(0 : Fin S8x64.rank) ∈ dot_S8x64_S64x32768_S8x32768_1_0_0_1_n_n.lhsBatch by decide),
      dif_pos (show (0 : Fin S8x64.rank) ∈ dot_S8x64_S64x32768_S8x32768_1_0_0_1_n_n.lhsNonContracting by decide)]
    rfl
  hl1 := fun j k => dot_S8x64_S64x32768_S8x32768_1_0_0_1_n_n.lhsIdx_val_of_single rfl j k
  hr0 := fun j k => dot_S8x64_S64x32768_S8x32768_1_0_0_1_n_n.rhsIdx_val_of_single rfl j k
  hr1 := fun j k => by
    unfold DotDims.rhsIdx
    rw [dif_neg (show ¬(1 : Fin S64x32768.rank) ∈ dot_S8x64_S64x32768_S8x32768_1_0_0_1_n_n.rhsBatch by decide),
      dif_pos (show (1 : Fin S64x32768.rank) ∈ dot_S8x64_S64x32768_S8x32768_1_0_0_1_n_n.rhsNonContracting by decide)]
    rfl

/-- The projected tile's payload, spelt as the tree of operations it is. -/
theorem pay2_eq {F : FTy → Type} [FloatOps F] (x0 : Vec F S8x64 .f32) (x1 : Vec F S64x32768 .f32) (x2 : Vec F S1x32768 .f32) :
    k0_pay2 x0 x1 x2
      = shapeCast S8x1x8x64x64 (shapeCast S8x8x64x64
          (addf (matmul dot_S8x64_S64x32768_S8x32768_1_0_0_1_n_n none
              (truncf .bf16 (shapeCast S8x64 x0 shapeCasts_S8x64_S8x64) bitsLt_bf16_f32) (truncf .bf16 x1 bitsLt_bf16_f32)
              (constant S8x32768 .f32 0x00000000#32))
            (broadcastTo S8x32768 (shapeCast S1x32768 x2 shapeCasts_S1x32768_S1x32768) broadcasts_S1x32768_S8x32768))
          shapeCasts_S8x32768_S8x8x64x64) shapeCasts_S8x8x64x64_S8x1x8x64x64 := rfl

/-- The projected tile at (b, 0, dd, hh, ww): the product's entry (b, n) plus the offset at n, n = dd·64² + hh·64 + ww. -/
theorem pay2_apply (x0 : Vec Ideal S8x64 .f32) (x1 : Vec Ideal S64x32768 .f32) (x2 : Vec Ideal S1x32768 .f32)
    (b : Fin 8) (u : Fin 1) (dd : Fin 8) (hh ww : Fin 64) (n : Fin 32768) (hn : n.val = dd.val * 4096 + hh.val * 64 + ww.val) :
    k0_pay2 (F := Ideal) x0 x1 x2 (ix5 b u dd hh ww)
      = (∑ k : Fin 64, x0 (ix2 b k) * x1 (ix2 k n)) + x2 (ix2 (0 : Fin 1) n) := by
  have hu : u.val = 0 := by have := u.isLt; omega
  have e1 : (S8x8x64x64.rowMajor (ix4 b dd hh ww)).val = (S8x1x8x64x64.rowMajor (ix5 b u dd hh ww)).val := by
    rw [Shape.rowMajor_val_four, Shape.rowMajor_val_five]
    show ((b.val * 8 + dd.val) * 64 + hh.val) * 64 + ww.val = (((b.val * 1 + u.val) * 8 + dd.val) * 64 + hh.val) * 64 + ww.val
    omega
  have e2 : (S8x32768.rowMajor (ix2 b n)).val = (S8x8x64x64.rowMajor (ix4 b dd hh ww)).val := by
    rw [Shape.rowMajor_val_two, Shape.rowMajor_val_four]
    show b.val * 32768 + n.val = ((b.val * 8 + dd.val) * 64 + hh.val) * 64 + ww.val
    omega
  rw [pay2_eq, shapeCast_apply _ shapeCasts_S8x8x64x64_S8x1x8x64x64 (ix5 b u dd hh ww) (ix4 b dd hh ww) e1,
    shapeCast_apply _ shapeCasts_S8x32768_S8x8x64x64 (ix4 b dd hh ww) (ix2 b n) e2, addf_apply,
    Cert.LibDot.matmul_ix2 plainDot,
    broadcastTo_apply _ broadcasts_S1x32768_S8x32768 (ix2 b n) (ix2 (0 : Fin 1) n) (fun a => match a with
      | ⟨0, _⟩ => by show 0 = if (1 : Nat) = 1 then 0 else _; rw [if_pos rfl]
      | ⟨1, _⟩ => by show n.val = if (32768 : Nat) = 1 then 0 else n.val; rw [if_neg (by decide)]),
    shapeCast_self, shapeCast_self]
  rfl

/-! ## The staging block after a point, at an index -/

/-- After a pad point every element is the zero word. -/
theorem outPad_apply (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : ¬isData i)
    (x0 : Vec Ideal S8x64 .f32) (x1 : Vec Ideal S64x32768 .f32) (x2 : Vec Ideal S1x32768 .f32) (y : S8x1x8x128x128.Idx) :
    outPad (F := Ideal) c i arg2 harg2 arg3 harg3 arg4 harg4 arg5 harg5 hc x0 x1 x2 y = Ideal.ofBits .f32 0x00000000#32 := by
  unfold outPad
  rw [runPad_pieces]
  exact View.read_writes_cons_unit_of_mem VO _ inb_S8x1x8x128x128_S8x1x8x128x128_0_0_0_0_0 _ [] y y rfl
    (fun a => (Nat.zero_add _).symm.trans (by
      match a with
      | ⟨0, _⟩ => rfl
      | ⟨1, _⟩ => rfl
      | ⟨2, _⟩ => rfl
      | ⟨3, _⟩ => rfl
      | ⟨4, _⟩ => rfl))

/-- After a data point an element inside the central square reads the projected tile at its position in the square,
    any other element the zero word. -/
theorem outData_apply (c : Dev nD) (i : grid0.Coords) (arg2 : Memref sig .tc .vmem S8x64 .f32) (harg2 : arg2.IsWhole)
    (arg3 : Memref sig .tc .vmem S64x32768 .f32) (harg3 : arg3.IsWhole) (arg4 : Memref sig .tc .vmem S1x32768 .f32) (harg4 : arg4.IsWhole)
    (arg5 : Memref sig .tc .vmem S8x1x8x128x128 .f32) (harg5 : arg5.IsWhole) (hc : isData i)
    (x0 : Vec Ideal S8x64 .f32) (x1 : Vec Ideal S64x32768 .f32) (x2 : Vec Ideal S1x32768 .f32) (y : S8x1x8x128x128.Idx) :
    outData (F := Ideal) c i arg2 harg2 arg3 harg3 arg4 harg4 arg5 harg5 hc x0 x1 x2 y
      = if h : ∀ a, (![0, 0, 0, 32, 32] : Fin 5 → Nat) a ≤ (y a).val ∧ (y a).val < (![0, 0, 0, 32, 32] : Fin 5 → Nat) a + S8x1x8x64x64.size a then
          k0_pay2 (F := Ideal) x0 x1 x2 (Rect.unitLocal (s := S8x1x8x128x128) (off := ![0, 0, 0, 32, 32]) (size := S8x1x8x64x64.size) y h)
        else Ideal.ofBits .f32 0x00000000#32 := by
  unfold outData
  rw [runData_pieces, View.read_writes_cons_unit VO _ inb_S8x1x8x128x128_S8x1x8x64x64_0_0_0_32_32 _ _ y rfl]
  split
  · rfl
  · exact View.read_writes_cons_unit_of_mem VO _ inb_S8x1x8x128x128_S8x1x8x128x128_0_0_0_0_0 _ [] y y rfl
      (fun a => (Nat.zero_add _).symm.trans (by
        match a with
        | ⟨0, _⟩ => rfl
        | ⟨1, _⟩ => rfl
        | ⟨2, _⟩ => rfl
        | ⟨3, _⟩ => rfl
        | ⟨4, _⟩ => rfl))

end Cert.KernelIdeal.Body

end
-- ==== Proof.Spec.lean ====
/-
  The common value of the two programs, as one function of the argument arrays.

  Write flat(b, n) = Σ_k (L k · z(b, k)) · U(k, n) + mu n for the projection of latent row b onto column n.
  The result array has shape [8, 4, 128, 128, 128], indexed (b, c, d, h, w). It is zero outside the central
  square 32 ≤ h, w < 96 and on the planes 32 ≤ d < 96; on the planes d < 32 it holds the source plane r = d,
  on the planes 96 ≤ d the source plane r = d − 64, at flat column c·64³ + r·64² + (h − 32)·64 + (w − 32).
  Both programs compute the sum over k in this grouping, so no law beyond reading each side at an index is needed.
  The value is stated over the coordinates as natural numbers, so that each side reaches it by arithmetic on them.
-/
import Mathlib
import Idealize.ShloMosaic.Lib.ValueIdx
import Idealize.ShloMosaic.PureOps.Ideal

noncomputable section

namespace Cert.Spec

open Idealize.ShloMosaic Idealize.ShloMosaic.ValueIdx

/-- One entry of the projection: row `b`, column `n`. -/
def flat (z : (⟨2, ![8, 64]⟩ : Shape).Idx → EReal) (U : (⟨2, ![64, 1048576]⟩ : Shape).Idx → EReal)
    (L : (⟨1, ![64]⟩ : Shape).Idx → EReal) (mu : (⟨1, ![1048576]⟩ : Shape).Idx → EReal) (b : Fin 8) (n : Fin 1048576) : EReal :=
  (∑ k : Fin 64, (L (ix1 k) * z (ix2 b k)) * U (ix2 k n)) + mu (ix1 n)

/-- The same at a column given as a number (the value past the last column is never read). -/
def flatN (z : (⟨2, ![8, 64]⟩ : Shape).Idx → EReal) (U : (⟨2, ![64, 1048576]⟩ : Shape).Idx → EReal)
    (L : (⟨1, ![64]⟩ : Shape).Idx → EReal) (mu : (⟨1, ![1048576]⟩ : Shape).Idx → EReal) (b : Fin 8) (n : Nat) : EReal :=
  if hn : n < 1048576 then flat z U L mu b ⟨n, hn⟩ else 0

theorem flatN_of_lt (z : (⟨2, ![8, 64]⟩ : Shape).Idx → EReal) (U : (⟨2, ![64, 1048576]⟩ : Shape).Idx → EReal)
    (L : (⟨1, ![64]⟩ : Shape).Idx → EReal) (mu : (⟨1, ![1048576]⟩ : Shape).Idx → EReal) (b : Fin 8) (n : Fin 1048576) (N : Nat) (h : N = n.val) :
    flatN z U L mu b N = (∑ k : Fin 64, (L (ix1 k) * z (ix2 b k)) * U (ix2 k n)) + mu (ix1 n) := by
  subst h
  unfold flatN
  rw [dif_pos n.isLt]
  rfl

/-- The column of the projection placed at channel `c`, source plane `r`, row `h`, column `w` of the padded grid. -/
def col (c r h w : Nat) : Nat := c * 262144 + r * 4096 + (h - 32) * 64 + (w - 32)

/-- The result at coordinates (b, c, d, h, w). -/
def gval (z : (⟨2, ![8, 64]⟩ : Shape).Idx → EReal) (U : (⟨2, ![64, 1048576]⟩ : Shape).Idx → EReal)
    (L : (⟨1, ![64]⟩ : Shape).Idx → EReal) (mu : (⟨1, ![1048576]⟩ : Shape).Idx → EReal) (b : Fin 8) (c d h w : Nat) : EReal :=
  if (32 ≤ h ∧ h < 96) ∧ (32 ≤ w ∧ w < 96) then
    if d < 32 then flatN z U L mu b (col c d h w)
    else if 96 ≤ d then flatN z U L mu b (col c (d - 64) h w)
    else Ideal.ofBits .f32 0x00000000#32
  else Ideal.ofBits .f32 0x00000000#32

/-- The result array, index by index. -/
def G (z : (⟨2, ![8, 64]⟩ : Shape).Idx → EReal) (U : (⟨2, ![64, 1048576]⟩ : Shape).Idx → EReal)
    (L : (⟨1, ![64]⟩ : Shape).Idx → EReal) (mu : (⟨1, ![1048576]⟩ : Shape).Idx → EReal)
    (i : (⟨5, ![8, 4, 128, 128, 128]⟩ : Shape).Idx) : EReal :=
  gval z U L mu (i 0) (i 1).val (i 2).val (i 3).val (i 4).val

end Cert.Spec

end
-- ==== Proof.KernelIdealArray.lean ====
/-
  The idealized kernel's result array is the specification's function of the argument arrays.

  The region finds the scaled latent L·z and the offset re-laid as one row where the host wrote them, and the
  basis as launched. Block (0, c, t, 0, 0) of the result — eight planes d = 8t + dd of channel c — is written
  at grid point 16c + t from: the whole scaled latent; the basis tile and the offset tile at column tile
  8c + t (t < 4) or 8c + t − 8 (t ≥ 12), the tile a pad point stages being unread. An element inside the
  central square then sits at flat column (8c + tile)·32768 + dd·64² + (h − 32)·64 + (w − 32), which is the
  specification's column for source plane d (d < 32) or d − 64 (d ≥ 96); everything else is the zero word on
  both sides. The 64 blocks tile the array, so the array ends as the specification's function.
-/
import proofs.«130029_j807453852263_2_alg».proof.Proof.KernelIdealBlock
import proofs.«130029_j807453852263_2_alg».proof.Proof.Spec
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays, named at their plain types -/

/-- The four argument arrays as launched, -/
abbrev argZ (c : Dev nD) : S8x64.Idx → EReal := m ((c : Thread nD τ).loc main_arg0)
abbrev argU (c : Dev nD) : S64x1048576.Idx → EReal := m ((c : Thread nD τ).loc main_arg1)
abbrev argL (c : Dev nD) : S64.Idx → EReal := m ((c : Thread nD τ).loc main_arg2)
abbrev argMu (c : Dev nD) : S1048576.Idx → EReal := m ((c : Thread nD τ).loc main_arg3)
/-- and the three arrays the region's input windows stage, as the region finds them. -/
abbrev scaledArr (c : Dev nD) : S8x64.Idx → EReal := V m c main_v2
abbrev basisArr (c : Dev nD) : S64x1048576.Idx → EReal := V m c main_arg1
abbrev offsetRow (c : Dev nD) : S1x1048576.Idx → EReal := V m c main_v3

/-! ## The arrays the host wrote before the region -/

/-- The scaled latent: the scale broadcast along the rows, times the latent. -/
theorem V_scaled (c : Dev nD) : scaledArr m c
    = mulf (F := Ideal) (φ := .f32) (broadcastInDim S8x64 ![0, 1] bcast_S1x64_S8x64_0_1 (broadcastInDim S1x64 ![1] bcast_S64_S1x64_1 (argL m c)))
        (argZ m c) := by
  dsimp only [scaledArr, V, hostOps0]; after_results <;> rfl

/-- The offset re-laid as one row. -/
theorem V_offsetRow (c : Dev nD) : offsetRow m c
    = shapeCast S1x1048576 (argMu m c) shapeCasts_S1048576_S1x1048576 := by
  dsimp only [offsetRow, V, hostOps0]; after_results <;> rfl

theorem V_basis (c : Dev nD) : basisArr m c = argU m c := V_main_arg1 m c

theorem V_scaled_apply (c : Dev nD) (b : Fin 8) (k : Fin 64) :
    scaledArr m c (ix2 b k) = argL m c (ix1 k) * argZ m c (ix2 b k) := by
  rw [V_scaled, mulf_apply,
    broadcastInDim_apply _ bcast_S1x64_S8x64_0_1 _ (ix2 b k) (ix2 (0 : Fin 1) k) (fun a => match a with
      | ⟨0, _⟩ => by show 0 = if (1 : Nat) = 1 then 0 else b.val; rw [if_pos rfl]
      | ⟨1, _⟩ => by show k.val = if (64 : Nat) = 1 then 0 else k.val; rw [if_neg (by decide)]),
    broadcastInDim_apply _ bcast_S64_S1x64_1 _ (ix2 (0 : Fin 1) k) (ix1 k) (fun a => match a with
      | ⟨0, _⟩ => by show k.val = if (64 : Nat) = 1 then 0 else k.val; rw [if_neg (by decide)])]

theorem V_offsetRow_apply (c : Dev nD) (u : Fin 1) (n : Fin 1048576) :
    offsetRow m c (ix2 u n) = argMu m c (ix1 n) := by
  rw [V_offsetRow, shapeCast_apply _ shapeCasts_S1048576_S1x1048576 (ix2 u n) (ix1 n) (by
    rw [Shape.rowMajor_val_one, Shape.rowMajor_val_two]
    have hu : u.val = 0 := by have := u.isLt; omega
    show n.val = u.val * 1048576 + n.val
    omega)]

/-! ## The printed index maps over the grid -/

/-- Point `t` is channel `t / 16`, depth block `t % 16`; the output's block index is (0, c, t, 0, 0); the scaled
    latent is one block; the basis and offset tiles are at column tile 8c + t below 4 and 8c + t − 8 from 12 on. -/
theorem idx_facts : ∀ t : Fin cfg0.N,
    (win0_3.index t (0 : Fin 5) = 0 ∧ win0_3.index t (1 : Fin 5) = t.val / 16 ∧ win0_3.index t (2 : Fin 5) = t.val % 16
      ∧ win0_3.index t (3 : Fin 5) = 0 ∧ win0_3.index t (4 : Fin 5) = 0)
    ∧ (win0_0.index t (0 : Fin 2) = 0 ∧ win0_0.index t (1 : Fin 2) = 0)
    ∧ (win0_1.index t (0 : Fin 2) = 0 ∧ win0_2.index t (0 : Fin 2) = 0 ∧ win0_2.index t (1 : Fin 2) = win0_1.index t (1 : Fin 2))
    ∧ (t.val % 16 < 4 → win0_1.index t (1 : Fin 2) = t.val / 16 * 8 + t.val % 16)
    ∧ (12 ≤ t.val % 16 → win0_1.index t (1 : Fin 2) = t.val / 16 * 8 + (t.val % 16 - 8)) :=
  (by decide +kernel : ∀ t : Fin grid0.N, _)

/-! ## The input blocks at an index -/

theorem iblk0_apply (c : Dev nD) (t : Fin cfg0.N) (b : Fin 8) (k : Fin 64) :
    iblk m c 0 t (ix2 b k) = argL m c (ix1 k) * argZ m c (ix2 b k) := by
  obtain ⟨-, ⟨e0, e1⟩, -⟩ := idx_facts t
  rw [← V_scaled_apply m c b k]
  show scaledArr m c (((cfg0.win 0).blk t).view.emb (ix2 b k)) = scaledArr m c (ix2 b k)
  refine congrArg (scaledArr m c) (funext fun a => Fin.ext ?_)
  match a with
  | ⟨0, _⟩ => show win0_0.index t (0 : Fin 2) * 8 + 1 * b.val = b.val; omega
  | ⟨1, _⟩ => show win0_0.index t (1 : Fin 2) * 64 + 1 * k.val = k.val; omega

theorem iblk1_apply (c : Dev nD) (t : Fin cfg0.N) (k : Fin 64) (n : Fin 32768) (n' : Fin 1048576)
    (hn : n'.val = win0_1.index t (1 : Fin 2) * 32768 + n.val) :
    iblk m c 1 t (ix2 k n) = argU m c (ix2 k n') := by
  obtain ⟨-, -, ⟨e0, -, -⟩, -⟩ := idx_facts t
  rw [← V_basis m c]
  show basisArr m c (((cfg0.win 1).blk t).view.emb (ix2 k n)) = basisArr m c (ix2 k n')
  refine congrArg (basisArr m c) (funext fun a => Fin.ext ?_)
  match a with
  | ⟨0, _⟩ => show win0_1.index t (0 : Fin 2) * 64 + 1 * k.val = k.val; omega
  | ⟨1, _⟩ => show win0_1.index t (1 : Fin 2) * 32768 + 1 * n.val = n'.val; omega

theorem iblk2_apply (c : Dev nD) (t : Fin cfg0.N) (u : Fin 1) (n : Fin 32768) (n' : Fin 1048576)
    (hn : n'.val = win0_1.index t (1 : Fin 2) * 32768 + n.val) :
    iblk m c 2 t (ix2 u n) = argMu m c (ix1 n') := by
  obtain ⟨-, -, ⟨-, e0, e1⟩, -⟩ := idx_facts t
  rw [← V_offsetRow_apply m c (0 : Fin 1) n']
  show offsetRow m c (((cfg0.win 2).blk t).view.emb (ix2 u n)) = offsetRow m c (ix2 (0 : Fin 1) n')
  refine congrArg (offsetRow m c) (funext fun a => Fin.ext ?_)
  have hu : u.val = 0 := by have := u.isLt; omega
  match a with
  | ⟨0, _⟩ => show win0_2.index t (0 : Fin 2) * 1 + 1 * u.val = 0; omega
  | ⟨1, _⟩ => show win0_2.index t (1 : Fin 2) * 32768 + 1 * n.val = n'.val; omega

/-! ## What a point leaves is its block of the specification -/

theorem N_eq : cfg0.N = 64 := N_0

/-- Element `j` of what point `t` leaves in the staging block is the specification at the array index under `j`. -/
theorem block_eq (c : Dev nD) (t : Fin cfg0.N) (j : S8x1x8x128x128.Idx) :
    outAt m c t j = Cert.Spec.G (argZ m c) (argU m c) (argL m c) (argMu m c) (((cfg0.win 3).blk t).view.emb j) := by
  obtain ⟨⟨o0, o1, o2, o3, o4⟩, -, -, hlo, hhi⟩ := idx_facts t
  have hN : t.val < 64 := lt_of_lt_of_eq t.isLt N_eq
  have j0 : (j 0).val < 8 := (j 0).isLt
  have j1 : (j 1).val < 1 := (j 1).isLt
  have j2 : (j 2).val < 8 := (j 2).isLt
  have j3 : (j 3).val < 128 := (j 3).isLt
  have j4 : (j 4).val < 128 := (j 4).isLt
  have c0 : (((cfg0.win 3).blk t).view.emb j) 0 = j 0 := Fin.ext (by
    show win0_3.index t (0 : Fin 5) * 8 + 1 * (j 0).val = (j 0).val; omega)
  have c1 : ((((cfg0.win 3).blk t).view.emb j) 1).val = t.val / 16 := by
    show win0_3.index t (1 : Fin 5) * 1 + 1 * (j 1).val = _; omega
  have c2 : ((((cfg0.win 3).blk t).view.emb j) 2).val = t.val % 16 * 8 + (j 2).val := by
    show win0_3.index t (2 : Fin 5) * 8 + 1 * (j 2).val = _; omega
  have c3 : ((((cfg0.win 3).blk t).view.emb j) 3).val = (j 3).val := by
    show win0_3.index t (3 : Fin 5) * 128 + 1 * (j 3).val = _; omega
  have c4 : ((((cfg0.win 3).blk t).view.emb j) 4).val = (j 4).val := by
    show win0_3.index t (4 : Fin 5) * 128 + 1 * (j 4).val = _; omega
  unfold Cert.Spec.G
  rw [c0, c1, c2, c3, c4]
  by_cases h0 : t.val % 16 < 4 ∨ 12 ≤ t.val % 16
  · rw [outAt_data m c t h0, outData_apply]
    by_cases hsq : (32 ≤ (j 3).val ∧ (j 3).val < 96) ∧ (32 ≤ (j 4).val ∧ (j 4).val < 96)
    · have hall : ∀ a, (![0, 0, 0, 32, 32] : Fin 5 → Nat) a ≤ (j a).val ∧ (j a).val < (![0, 0, 0, 32, 32] : Fin 5 → Nat) a + S8x1x8x64x64.size a := by
        intro a
        match a with
        | ⟨0, _⟩ => exact ⟨Nat.zero_le _, by show (j 0).val < 0 + 8; omega⟩
        | ⟨1, _⟩ => exact ⟨Nat.zero_le _, by show (j 1).val < 0 + 1; omega⟩
        | ⟨2, _⟩ => exact ⟨Nat.zero_le _, by show (j 2).val < 0 + 8; omega⟩
        | ⟨3, _⟩ => exact ⟨hsq.1.1, by show (j 3).val < 32 + 64; omega⟩
        | ⟨4, _⟩ => exact ⟨hsq.2.1, by show (j 4).val < 32 + 64; omega⟩
      rw [dif_pos hall]
      have hnlt : (j 2).val * 4096 + ((j 3).val - 32) * 64 + ((j 4).val - 32) < 32768 := by omega
      have hTlt : win0_1.index t (1 : Fin 2) * 32768 + ((j 2).val * 4096 + ((j 3).val - 32) * 64 + ((j 4).val - 32)) < 1048576 := by
        rcases h0 with h | h
        · rw [hlo h]; omega
        · rw [hhi h]; omega
      refine (congrArg (k0_pay2 (F := Ideal) _ _ _) (eq_ix5 _)).trans ((pay2_apply _ _ _ _ _ _ _ _ ⟨_, hnlt⟩ (by
        show (j 2).val * 4096 + ((j 3).val - 32) * 64 + ((j 4).val - 32) = ((j 2).val - 0) * 4096 + ((j 3).val - 32) * 64 + ((j 4).val - 32)
        omega)).trans ?_)
      have hb : (Rect.unitLocal (s := S8x1x8x128x128) (off := ![0, 0, 0, 32, 32]) (size := S8x1x8x64x64.size) j hall) 0 = j 0 :=
        Fin.ext (Nat.sub_zero _)
      rw [hb, iblk2_apply m c t (0 : Fin 1) ⟨_, hnlt⟩ ⟨_, hTlt⟩ rfl,
        Finset.sum_congr rfl (fun k _ => by rw [iblk0_apply m c t (j 0) k, iblk1_apply m c t k ⟨_, hnlt⟩ ⟨_, hTlt⟩ rfl])]
      unfold Cert.Spec.gval
      rw [if_pos hsq]
      rcases h0 with h | h
      · rw [if_pos (by omega : t.val % 16 * 8 + (j 2).val < 32)]
        exact (Cert.Spec.flatN_of_lt _ _ _ _ (j 0) ⟨_, hTlt⟩ _ (by
          show Cert.Spec.col (t.val / 16) (t.val % 16 * 8 + (j 2).val) (j 3).val (j 4).val = _
          unfold Cert.Spec.col
          show _ = win0_1.index t (1 : Fin 2) * 32768 + ((j 2).val * 4096 + ((j 3).val - 32) * 64 + ((j 4).val - 32))
          rw [hlo h]; omega)).symm
      · rw [if_neg (by omega : ¬ t.val % 16 * 8 + (j 2).val < 32), if_pos (by omega : 96 ≤ t.val % 16 * 8 + (j 2).val)]
        exact (Cert.Spec.flatN_of_lt _ _ _ _ (j 0) ⟨_, hTlt⟩ _ (by
          show Cert.Spec.col (t.val / 16) (t.val % 16 * 8 + (j 2).val - 64) (j 3).val (j 4).val = _
          unfold Cert.Spec.col
          show _ = win0_1.index t (1 : Fin 2) * 32768 + ((j 2).val * 4096 + ((j 3).val - 32) * 64 + ((j 4).val - 32))
          rw [hhi h]; omega)).symm
    · rw [dif_neg (fun hall => hsq ⟨⟨(hall 3).1, by have := (hall 3).2; show (j 3).val < 96; exact this⟩,
        ⟨(hall 4).1, by have := (hall 4).2; show (j 4).val < 96; exact this⟩⟩)]
      unfold Cert.Spec.gval
      rw [if_neg hsq]
  · rw [outAt_pad m c t h0, outPad_apply]
    unfold Cert.Spec.gval
    by_cases hsq : (32 ≤ (j 3).val ∧ (j 3).val < 96) ∧ (32 ≤ (j 4).val ∧ (j 4).val < 96)
    · rw [if_pos hsq, if_neg (by omega : ¬ t.val % 16 * 8 + (j 2).val < 32), if_neg (by omega : ¬ 96 ≤ t.val % 16 * 8 + (j 2).val)]
    · rw [if_neg hsq]

/-- WHAT POINT `t` WRITES BACK is its block of the specification's function of the argument arrays. -/
theorem flushed_eq (c : Dev nD) (t : Fin cfg0.N) :
    (dats m 0 c).flushed 3 t
      = ((cfg0.win 3).blk t).view.read (Elt Ideal) (Cert.Spec.G (argZ m c) (argU m c) (argL m c) (argMu m c)) := by
  show (cfg0.win 3).cut (grid0.coords t) ((dats m 0 c).after 3 t) = _
  rw [after3]
  funext j
  exact block_eq m c t j

/-! ## The blocks tile the array -/

/-- An index of the array is in point `t`'s block iff each coordinate is in the block's range on its axis. -/
theorem mem_blk (t : Fin cfg0.N) (i : S8x4x128x128x128.Idx) :
    i ∈ ((cfg0.win 3).blk t).view.set ↔ ∀ a : Fin 5, win0_3.index t a * S8x1x8x128x128.size a ≤ (i a).val
      ∧ (i a).val < win0_3.index t a * S8x1x8x128x128.size a + S8x1x8x128x128.size a := by
  show i ∈ ((View.whole main_v4).slice (win0_3.rect t)).set ↔ _
  rw [View.set_slice_whole, Rect.mem_set_unit]
  exact Iff.rfl

/-- Index (b, c, d, h, w) is in the block of point 16c + d / 8. -/
theorem cover (i : S8x4x128x128x128.Idx) :
    ∃ t : Fin cfg0.N, (cfg0.win 3).flush t = true ∧ i ∈ ((cfg0.win 3).blk t).view.set := by
  have i0 : (i 0).val < 8 := (i 0).isLt
  have i1 : (i 1).val < 4 := (i 1).isLt
  have i2 : (i 2).val < 128 := (i 2).isLt
  have i3 : (i 3).val < 128 := (i 3).isLt
  have i4 : (i 4).val < 128 := (i 4).isLt
  have hlt : (i 1).val * 16 + (i 2).val / 8 < cfg0.N := by rw [N_eq]; omega
  obtain ⟨⟨o0, o1, o2, o3, o4⟩, -⟩ := idx_facts ⟨(i 1).val * 16 + (i 2).val / 8, hlt⟩
  refine ⟨⟨(i 1).val * 16 + (i 2).val / 8, hlt⟩, flush0_3 _, ?_⟩
  rw [mem_blk]
  intro a
  match a with
  | ⟨0, _⟩ =>
    show win0_3.index _ (0 : Fin 5) * 8 ≤ (i 0).val ∧ (i 0).val < win0_3.index _ (0 : Fin 5) * 8 + 8
    rw [o0]; omega
  | ⟨1, _⟩ =>
    show win0_3.index _ (1 : Fin 5) * 1 ≤ (i 1).val ∧ (i 1).val < win0_3.index _ (1 : Fin 5) * 1 + 1
    rw [o1]; show ((i 1).val * 16 + (i 2).val / 8) / 16 * 1 ≤ _ ∧ _ < ((i 1).val * 16 + (i 2).val / 8) / 16 * 1 + 1; omega
  | ⟨2, _⟩ =>
    show win0_3.index _ (2 : Fin 5) * 8 ≤ (i 2).val ∧ (i 2).val < win0_3.index _ (2 : Fin 5) * 8 + 8
    rw [o2]; show ((i 1).val * 16 + (i 2).val / 8) % 16 * 8 ≤ _ ∧ _ < ((i 1).val * 16 + (i 2).val / 8) % 16 * 8 + 8; omega
  | ⟨3, _⟩ =>
    show win0_3.index _ (3 : Fin 5) * 128 ≤ (i 3).val ∧ (i 3).val < win0_3.index _ (3 : Fin 5) * 128 + 128
    rw [o3]; omega
  | ⟨4, _⟩ =>
    show win0_3.index _ (4 : Fin 5) * 128 ≤ (i 4).val ∧ (i 4).val < win0_3.index _ (4 : Fin 5) * 128 + 128
    rw [o4]; omega

/-! ## The array after the run, and the run -/

/-- The result array ends as the specification's function of the argument arrays. -/
theorem final (c : Dev nD) :
    (dats m 0 c).arrAt 3 cfg0.N = Cert.Spec.G (argZ m c) (argU m c) (argL m c) (argMu m c) :=
  (dats m 0 c).arrAt_eq_of_cover 3 _ (fun t _ => flushed_eq m c t) cover

/-- Every weakly fair execution of the idealized kernel terminates with the result array at the specification's
    function of the argument arrays and the argument arrays unchanged. -/
theorem run : θ_run defs (onTc (τ := τ) (main (F := Ideal))) ⟨m, fun _ => 0, ρ⟩ fun r => ∀ c : Dev nD,
      r.2.mem ((c.tc : Thread nD τ).loc main_v4) = Cert.Spec.G (argZ m c) (argU m c) (argL m c) (argMu m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Body

end
-- ==== Proof.LibScatterSet.lean ====
/-
  A scatter whose body returns the update ("set"), read at one operand index.

  The scatter is a left fold over the update indices in row-major order; each step overwrites the element at the
  update's result index, when that index lies inside the operand. Read at a fixed operand index `i`:
  * if no update index lands on `i`, the operand's element is still there;
  * if exactly one update index `j` lands on `i`, the element is that update's value.
  Both are statements about the fold alone and hold for any dimension numbers, shapes and index width.
-/
import Mathlib
import Idealize.ShloMosaic.PureOps.ShapeOps

namespace Cert.LibScatterSet

open Idealize.ShloMosaic

variable {α : Type} {s si u : Shape} {w : Nat}

/-- One step of the fold: update index number `n` overwrites the element at its result index, if it has one. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update does not land on `i` leaves the element at `i`. -/
theorem step_miss (d : ScatterDims s si u) (idx : IVec si w) (upd : u.Idx → α) (r : s.Idx → α) (n : Fin u.numel) (i : s.Idx)
    (h : d.resultIdx? (u.rowMajor.symm n) idx ≠ some i) : step d idx upd r n i = r i := by
  unfold step
  cases hr : d.resultIdx? (u.rowMajor.symm n) idx with
  | none => rfl
  | some i₀ =>
    have hne : i ≠ i₀ := fun e => h (by rw [hr, e])
    simp only [if_neg hne]

/-- A step whose update lands on `i` puts the update's value there. -/
theorem step_hit (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  simp only [if_pos]

/-- Steps none of which lands on `i` leave the element at `i`. -/
theorem foldl_miss (d : ScatterDims s si u) (idx : IVec si w) (upd : u.Idx → α) (i : s.Idx) :
    ∀ (l : List (Fin u.numel)) (x : s.Idx → α), (∀ n ∈ l, d.resultIdx? (u.rowMajor.symm n) idx ≠ some i) →
      l.foldl (step d idx upd) x i = x i
  | [], _, _ => rfl
  | n :: l, x, h => by
    rw [List.foldl_cons, foldl_miss d idx upd i l _ (fun n' hn' => h n' (List.mem_cons_of_mem _ hn'))]
    exact step_miss d idx upd x n i (h n List.mem_cons_self)

/-- Among steps without repetition, if exactly one (`n₀`) lands on `i`, the element at `i` ends as its update's value. -/
theorem foldl_hit (d : ScatterDims s si u) (idx : IVec si w) (upd : u.Idx → α) (i : s.Idx) (n₀ : Fin u.numel)
    (h₀ : d.resultIdx? (u.rowMajor.symm n₀) idx = some i) :
    ∀ (l : List (Fin u.numel)) (x : s.Idx → α), l.Nodup → n₀ ∈ l →
      (∀ n ∈ l, d.resultIdx? (u.rowMajor.symm n) idx = some i → n = n₀) →
      l.foldl (step d idx upd) x i = upd (u.rowMajor.symm n₀)
  | [], _, _, hm, _ => nomatch hm
  | n :: l, x, hnd, hm, hu => by
    rw [List.foldl_cons]
    obtain ⟨hnl, hndl⟩ := List.nodup_cons.mp hnd
    by_cases hn : n = n₀
    · subst hn
      rw [foldl_miss d idx upd i l _ (fun n' hn' e => hnl ((hu n' (List.mem_cons_of_mem _ hn') e) ▸ hn'))]
      exact step_hit d idx upd x n i h₀
    · have hm' : n₀ ∈ l := by
        rcases List.mem_cons.mp hm with e | e
        · exact absurd e.symm hn
        · exact e
      exact foldl_hit d idx upd i n₀ h₀ l _ hndl hm' (fun n' hn' => hu n' (List.mem_cons_of_mem _ hn'))

/-- No update index lands on `i`: the scatter's result at `i` is the operand's element. -/
theorem scatter_set_of_miss (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_miss d idx upd i _ x (fun n _ => h _)

/-- Exactly one update index `j` lands on `i`: the scatter's result at `i` is the update's value at `j`. -/
theorem scatter_set_of_unique (d : ScatterDims s si u) (x : s.Idx → α) (idx : IVec si w) (upd : u.Idx → α) (i : s.Idx) (j : u.Idx)
    (hj : d.resultIdx? j idx = some i) (hu : ∀ j', d.resultIdx? j' idx = some i → j' = j) :
    Host.scatter d (fun _ b => b) x idx upd i = upd j := by
  rw [scatter_eq_foldl]
  have h₀ : d.resultIdx? (u.rowMajor.symm (u.rowMajor j)) idx = some i := by rw [Equiv.symm_apply_apply]; exact hj
  rw [foldl_hit d idx upd i (u.rowMajor j) h₀ _ x (List.nodup_finRange _) (List.mem_finRange _)
    (fun n _ e => by rw [← hu _ e, Equiv.apply_symm_apply])]
  rw [Equiv.symm_apply_apply]

end Cert.LibScatterSet
-- ==== Proof.ReferenceValue.lean ====
/-
  The reference's result array is the specification's function of the argument arrays.

  The reference computes the whole projection flat = (L·z)·U + mu, re-lays it as [8, 4, 64, 64, 64] (row-major
  positions kept: entry (b, c, r, hh, ww) is flat(b, c·64³ + r·64² + hh·64 + ww)), and places its two halves
  along the third axis into a zero array by two scatters whose body returns the update: source planes r < 32 at
  planes d = r, rows and columns shifted by 32; source planes r ≥ 32 at d = r + 64. Each scatter has one start
  vector, (0, 32, 32) and (96, 32, 32), so update index j lands at (j₀, j₁, start + j₂, 32 + j₃, 32 + j₄), always
  inside the array and injectively: an array index in the target box reads the one update that lands on it, any
  other index keeps what was there. The two boxes are disjoint (d < 32 against d ≥ 96).
-/
import proofs.«130029_j807453852263_2_alg».proof.Proof.Gen.ReferenceIdeal.Read
import proofs.«130029_j807453852263_2_alg».proof.Proof.LibScatterSet
import proofs.«130029_j807453852263_2_alg».proof.Proof.Spec

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The two scatters' dimension numbers. -/
abbrev dS : ScatterDims S8x4x128x128x128 S3 S8x4x32x64x64 := scatter_S8x4x128x128x128_S3_S8x4x32x64x64_01234_n_234_0

/-! ## Where an update lands -/

/-- Update index `j` under the start vector (a0, 32, 32). -/
def target (a0 : Nat) (ha : a0 + 32 ≤ 128) (j : S8x4x32x64x64.Idx) : S8x4x128x128x128.Idx :=
  ix5 (j 0) (j 1) ⟨a0 + (j 2).val, by have h : (j 2).val < 32 := (j 2).isLt; omega⟩
    ⟨32 + (j 3).val, by have h : (j 3).val < 64 := (j 3).isLt; omega⟩
    ⟨32 + (j 4).val, by have h : (j 4).val < 64 := (j 4).isLt; omega⟩

/-- With start components 0, 0, a0, 32, 32 on the five operand axes, every update lands, at `target`. -/
theorem result_eq (a0 : Nat) (ha : a0 + 32 ≤ 128) (idx : IVec S3 32)
    (h0 : ∀ j, dS.start j idx (0 : Fin 5) = 0) (h1 : ∀ j, dS.start j idx (1 : Fin 5) = 0)
    (h2 : ∀ j, dS.start j idx (2 : Fin 5) = (a0 : Int)) (h3 : ∀ j, dS.start j idx (3 : Fin 5) = 32)
    (h4 : ∀ j, dS.start j idx (4 : Fin 5) = 32) (j : S8x4x32x64x64.Idx) :
    dS.resultIdx? j idx = some (target a0 ha j) := by
  have hsum : ∀ a : Fin 5, dS.start j idx a + dS.window j a = ((target a0 ha j a).val : Int) := by
    intro a
    match a with
    | ⟨0, _⟩ =>
      show dS.start j idx (0 : Fin 5) + (((j 0).val : Nat) : Int) = (((j 0).val : Nat) : Int)
      rw [h0]; omega
    | ⟨1, _⟩ =>
      show dS.start j idx (1 : Fin 5) + (((j 1).val : Nat) : Int) = (((j 1).val : Nat) : Int)
      rw [h1]; omega
    | ⟨2, _⟩ =>
      show dS.start j idx (2 : Fin 5) + (((j 2).val : Nat) : Int) = ((a0 + (j 2).val : Nat) : Int)
      rw [h2]; omega
    | ⟨3, _⟩ =>
      show dS.start j idx (3 : Fin 5) + (((j 3).val : Nat) : Int) = ((32 + (j 3).val : Nat) : Int)
      rw [h3]; omega
    | ⟨4, _⟩ =>
      show dS.start j idx (4 : Fin 5) + (((j 4).val : Nat) : Int) = ((32 + (j 4).val : Nat) : Int)
      rw [h4]; omega
  unfold ScatterDims.resultIdx?
  rw [dif_pos (fun a => by
    rw [hsum a]
    exact ⟨Int.natCast_nonneg _, by exact_mod_cast (target a0 ha j a).isLt⟩)]
  refine congrArg some (funext fun a => Fin.ext ?_)
  show (dS.start j idx a + dS.window j a).toNat = _
  rw [hsum a]
  exact Int.toNat_natCast _

/-- A scatter with that start vector whose body returns the update, read at an operand index: inside the target box
    the update at the index shifted back, elsewhere the operand. -/
theorem scatter_apply (a0 : Nat) (ha : a0 + 32 ≤ 128) (idx : IVec S3 32)
    (hres : ∀ j, dS.resultIdx? j idx = some (target a0 ha j))
    (x : S8x4x128x128x128.Idx → EReal) (upd : S8x4x32x64x64.Idx → EReal) (i : S8x4x128x128x128.Idx) :
    Host.scatter dS (fun _ b => b) x idx upd i
      = if h : (a0 ≤ (i 2).val ∧ (i 2).val < a0 + 32) ∧ (32 ≤ (i 3).val ∧ (i 3).val < 96) ∧ (32 ≤ (i 4).val ∧ (i 4).val < 96) then
          upd (ix5 (i 0) (i 1) ⟨(i 2).val - a0, by omega⟩ ⟨(i 3).val - 32, by omega⟩ ⟨(i 4).val - 32, by omega⟩)
        else x i := by
  split
  · rename_i h
    refine Cert.LibScatterSet.scatter_set_of_unique dS x idx upd i _ ?_ ?_
    · rw [hres]
      refine congrArg some (funext fun a => Fin.ext ?_)
      match a with
      | ⟨0, _⟩ => rfl
      | ⟨1, _⟩ => rfl
      | ⟨2, _⟩ => show a0 + ((i 2).val - a0) = (i 2).val; omega
      | ⟨3, _⟩ => show 32 + ((i 3).val - 32) = (i 3).val; omega
      | ⟨4, _⟩ => show 32 + ((i 4).val - 32) = (i 4).val; omega
    · intro j' hj'
      rw [hres] at hj'
      have e := Option.some.inj hj'
      have e0 : (j' 0).val = (i 0).val := congrArg (fun f : S8x4x128x128x128.Idx => (f 0).val) e
      have e1 : (j' 1).val = (i 1).val := congrArg (fun f : S8x4x128x128x128.Idx => (f 1).val) e
      have e2 : a0 + (j' 2).val = (i 2).val := congrArg (fun f : S8x4x128x128x128.Idx => (f 2).val) e
      have e3 : 32 + (j' 3).val = (i 3).val := congrArg (fun f : S8x4x128x128x128.Idx => (f 3).val) e
      have e4 : 32 + (j' 4).val = (i 4).val := congrArg (fun f : S8x4x128x128x128.Idx => (f 4).val) e
      funext a
      apply Fin.ext
      match a with
      | ⟨0, _⟩ => exact e0
      | ⟨1, _⟩ => exact e1
      | ⟨2, _⟩ => show (j' 2).val = (i 2).val - a0; omega
      | ⟨3, _⟩ => show (j' 3).val = (i 3).val - 32; omega
      | ⟨4, _⟩ => show (j' 4).val = (i 4).val - 32; omega
  · rename_i h
    refine Cert.LibScatterSet.scatter_set_of_miss dS x idx upd i (fun j hj => h ?_)
    rw [hres] at hj
    have e := Option.some.inj hj
    have e2 : a0 + (j 2).val = (i 2).val := congrArg (fun f : S8x4x128x128x128.Idx => (f 2).val) e
    have e3 : 32 + (j 3).val = (i 3).val := congrArg (fun f : S8x4x128x128x128.Idx => (f 3).val) e
    have e4 : 32 + (j 4).val = (i 4).val := congrArg (fun f : S8x4x128x128x128.Idx => (f 4).val) e
    have b2 : (j 2).val < 32 := (j 2).isLt
    have b3 : (j 3).val < 64 := (j 3).isLt
    have b4 : (j 4).val < 64 := (j 4).isLt
    omega

/-- The first scatter's start vector is (0, 32, 32), the second's (96, 32, 32). -/
theorem resLow (j : S8x4x32x64x64.Idx) : dS.resultIdx? j (val_main_v13 (F := Ideal)) = some (target 0 (by omega) j) :=
  result_eq 0 (by omega) _ (fun _ => rfl) (fun _ => rfl) (fun _ => rfl) (fun _ => rfl) (fun _ => rfl) j

theorem resHigh (j : S8x4x32x64x64.Idx) : dS.resultIdx? j (val_main_v19 (F := Ideal)) = some (target 96 (by omega) j) :=
  result_eq 96 (by omega) _ (fun _ => rfl) (fun _ => rfl) (fun _ => rfl) (fun _ => rfl) (fun _ => rfl) j

/-! ## The projection and its re-laid form at an index -/

/-- The projection at row `b`, column `n`. -/
theorem proj_apply (x0 : S8x64.Idx → EReal) (x1 : S64x1048576.Idx → EReal) (x2 : S64.Idx → EReal) (x3 : S1048576.Idx → EReal)
    (b : Fin 8) (n : Fin 1048576) :
    val_main_v6 (F := Ideal) x0 x1 x2 x3 (ix2 b n) = (∑ k : Fin 64, (x2 (ix1 k) * x0 (ix2 b k)) * x1 (ix2 k n)) + x3 (ix1 n) := by
  rw [val_main_v6_apply, val_main_v3_apply, val_main_v5_apply, val_main_v4_apply]
  show (∑ k : Fin 64, val_main_v2 (F := Ideal) x0 x2 (lidx_main_v3 (ix2 b n) k) * x1 (ridx_main_v3 (ix2 b n) k)) + x3 (idx_main_v4 (idx_main_v5 (ix2 b n))) = _
  have el : ∀ k : Fin 64, lidx_main_v3 (ix2 b n) k = ix2 b k := fun k => funext fun a => Fin.ext (by
    match a with
    | ⟨0, _⟩ => rfl
    | ⟨1, _⟩ => rfl)
  have er : ∀ k : Fin 64, ridx_main_v3 (ix2 b n) k = ix2 k n := fun k => funext fun a => Fin.ext (by
    match a with
    | ⟨0, _⟩ => rfl
    | ⟨1, _⟩ => rfl)
  have e4 : idx_main_v4 (idx_main_v5 (ix2 b n)) = ix1 n := funext fun a => Fin.ext (by
    match a with
    | ⟨0, _⟩ => rfl)
  rw [e4]
  refine congrArg (· + x3 (ix1 n)) (Finset.sum_congr rfl fun k _ => ?_)
  rw [el, er, val_main_v2_apply, val_main_v1_apply, val_main_v0_apply]
  have e0 : idx_main_v0 (idx_main_v1 (ix2 b k)) = ix1 k := funext fun a => Fin.ext (by
    match a with
    | ⟨0, _⟩ => rfl)
  rw [e0]
  rfl

/-- The re-laid projection at (b, c, r, hh, ww) is the projection at column c·64³ + r·64² + hh·64 + ww. -/
theorem relaid_apply (x0 : S8x64.Idx → EReal) (x1 : S64x1048576.Idx → EReal) (x2 : S64.Idx → EReal) (x3 : S1048576.Idx → EReal)
    (p : S8x4x64x64x64.Idx) (N : Nat) (hN : N = (p 1).val * 262144 + (p 2).val * 4096 + (p 3).val * 64 + (p 4).val) :
    val_main_v7 (F := Ideal) x0 x1 x2 x3 p = Cert.Spec.flatN x0 x1 x2 x3 (p 0) N := by
  have p0 : (p 0).val < 8 := (p 0).isLt
  have p1 : (p 1).val < 4 := (p 1).isLt
  have p2 : (p 2).val < 64 := (p 2).isLt
  have p3 : (p 3).val < 64 := (p 3).isLt
  have p4 : (p 4).val < 64 := (p 4).isLt
  have hlt : N < 1048576 := by omega
  have key : ∀ b : Fin 8, b.val = (p 0).val →
      val_main_v7 (F := Ideal) x0 x1 x2 x3 p = Cert.Spec.flatN x0 x1 x2 x3 b N := by
    intro b hb
    have ei : idx_main_v7 p = ix2 b ⟨N, hlt⟩ := funext fun a => Fin.ext (by
      match a with
      | ⟨0, _⟩ => show (((((p 0).val * 4 + (p 1).val) * 64 + (p 2).val) * 64 + (p 3).val) * 64 + (p 4).val) / 1048576 = b.val; omega
      | ⟨1, _⟩ => show (((((p 0).val * 4 + (p 1).val) * 64 + (p 2).val) * 64 + (p 3).val) * 64 + (p 4).val) % 1048576 = N; omega)
    rw [val_main_v7_apply, ei, proj_apply, Cert.Spec.flatN_of_lt x0 x1 x2 x3 b ⟨N, hlt⟩ N rfl]
  exact key ⟨(p 0).val, p0⟩ rfl

/-! ## The reference is the specification -/

theorem ref_eq (x0 : S8x64.Idx → EReal) (x1 : S64x1048576.Idx → EReal) (x2 : S64.Idx → EReal) (x3 : S1048576.Idx → EReal) :
    val_main_v20 (F := Ideal) x0 x1 x2 x3 = Cert.Spec.G x0 x1 x2 x3 := by
  funext i
  have i1 : (i 1).val < 4 := (i 1).isLt
  have i2 : (i 2).val < 128 := (i 2).isLt
  unfold val_main_v20
  rw [scatter_apply 96 (by omega) _ resHigh]
  unfold Cert.Spec.G Cert.Spec.gval
  split
  · rename_i h
    rw [if_pos ⟨h.2.1, h.2.2⟩, if_neg (by omega : ¬ (i 2).val < 32), if_pos h.1.1, val_main_v15_apply,
      relaid_apply x0 x1 x2 x3 _ (Cert.Spec.col (i 1).val ((i 2).val - 64) (i 3).val (i 4).val) (by
        unfold Cert.Spec.col
        show _ = (i 1).val * 262144 + (32 + ((i 2).val - 96)) * 4096 + ((i 3).val - 32) * 64 + ((i 4).val - 32)
        omega)]
    rfl
  · rename_i h
    unfold val_main_v14
    rw [scatter_apply 0 (by omega) _ resLow]
    split
    · rename_i h'
      rw [if_pos ⟨h'.2.1, h'.2.2⟩, if_pos (by omega : (i 2).val < 32), val_main_v9_apply,
        relaid_apply x0 x1 x2 x3 _ (Cert.Spec.col (i 1).val (i 2).val (i 3).val (i 4).val) (by
          unfold Cert.Spec.col
          show _ = (i 1).val * 262144 + ((i 2).val - 0) * 4096 + ((i 3).val - 32) * 64 + ((i 4).val - 32)
          omega)]
      rfl
    · rename_i h'
      rw [val_main_v8_apply]
      by_cases hsq : (32 ≤ (i 3).val ∧ (i 3).val < 96) ∧ (32 ≤ (i 4).val ∧ (i 4).val < 96)
      · rw [if_pos hsq, if_neg (by omega : ¬ (i 2).val < 32), if_neg (by omega : ¬ 96 ≤ (i 2).val)]
        rfl
      · rw [if_neg hsq]
        rfl

end Cert.ReferenceIdeal.RefValue

end
-- ==== Proof.lean ====
/-
  The fused projection-and-placement kernel against its reference: the five claims.

  Both programs compute out(b, c, d, h, w) = Σ_k (L k · z(b, k)) · U(k, n) + mu n on the central square
  32 ≤ h, w < 96 of the planes d < 32 and d ≥ 96, at column n = c·64³ + r·64² + (h − 32)·64 + (w − 32) with
  source plane r = d, resp. d − 64, and the zero word everywhere else (Proof/Spec.lean). The kernel reaches it
  block by block: each grid point zeroes its eight planes and, at a data point, overwrites the central squares
  with one column tile of the projection (Proof/KernelIdealBlock.lean, Proof/KernelIdealArray.lean); the
  reference computes the whole projection and scatters its two halves into a zero array
  (Proof/ReferenceValue.lean). The sum over k is grouped the same way on both sides, so the two results agree
  on all extended reals and the finiteness of the inputs is not used.
  The kernels' frames are proved from the body's two runs, one per branch of its conditional, at any float
  instance (Proof/KernelRun.lean, Proof/KernelFrame.lean and their idealized twins); the reference's frame is
  its run with the result dropped; the idealization rewrote no operation, so it preserves the kernel trivially.
-/
import proofs.«130029_j807453852263_2_alg».proof.Defs
import proofs.«130029_j807453852263_2_alg».proof.Proof.Gen.Kernel
import proofs.«130029_j807453852263_2_alg».proof.Proof.Gen.Kernel.Skeleton
import proofs.«130029_j807453852263_2_alg».proof.Proof.Gen.Kernel.Launch
import proofs.«130029_j807453852263_2_alg».proof.Proof.Gen.Kernel.Points
import proofs.«130029_j807453852263_2_alg».proof.Proof.Gen.Kernel.Frame
import proofs.«130029_j807453852263_2_alg».proof.Proof.Gen.KernelIdeal
import proofs.«130029_j807453852263_2_alg».proof.Proof.Gen.KernelIdeal.Skeleton
import proofs.«130029_j807453852263_2_alg».proof.Proof.Gen.KernelIdeal.Launch
import proofs.«130029_j807453852263_2_alg».proof.Proof.Gen.KernelIdeal.Points
import proofs.«130029_j807453852263_2_alg».proof.Proof.Gen.KernelIdeal.Frame
import proofs.«130029_j807453852263_2_alg».proof.Proof.Gen.ReferenceIdeal
import proofs.«130029_j807453852263_2_alg».proof.Proof.Gen.ReferenceIdeal.Run
import proofs.«130029_j807453852263_2_alg».proof.Proof.Gen.ReferenceIdeal.Read
import proofs.«130029_j807453852263_2_alg».proof.Proof.Gen.Pre_finite_inputs
import proofs.«130029_j807453852263_2_alg».proof.Proof.KernelFrame
import proofs.«130029_j807453852263_2_alg».proof.Proof.KernelIdealArray
import proofs.«130029_j807453852263_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_kernel : Cert.frame_Kernel := fun m ρ _ => Cert.Kernel.Body.frame (F := Bits) m ρ

/-- So does its idealization. -/
theorem frame_kernelIdeal : Cert.frame_KernelIdeal := fun m ρ _ => Cert.KernelIdeal.Body.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at the specification's function of the argument arrays. -/
theorem algebraic : Cert.algebraic_KernelIdeal_ReferenceIdeal := by
  intro m ρ m' ρ' _ hagree
  refine ⟨fun c => Cert.Spec.G (Cert.KernelIdeal.Body.argZ m c) (Cert.KernelIdeal.Body.argU m c)
    (Cert.KernelIdeal.Body.argL m c) (Cert.KernelIdeal.Body.argMu m c), Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v20_eq _ _ _ _).trans (Cert.ReferenceIdeal.RefValue.ref_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
